-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : FVec F S128x128 .f32) (main_arg3 : FVec F S128x128 .f32) (main_arg4 : IVec S2x600000 32) (main_arg5 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S100000x128 : Shape := ⟨2, ![100000, 128]⟩
abbrev S5000x128 : Shape := ⟨2, ![5000, 128]⟩
abbrev S1x50000x128 : Shape := ⟨3, ![1, 50000, 128]⟩
abbrev S2x50000x128 : Shape := ⟨3, ![2, 50000, 128]⟩

abbrev nBuf : Space → Nat
  | .hbm => 72
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S2x600000, .i32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S_, .f32⟩
  | .hbm, ⟨24, _⟩ => ⟨S600000x1, .f32⟩
  | .hbm, ⟨25, _⟩ => ⟨S_, .f32⟩
  | .hbm, ⟨26, _⟩ => ⟨S50000x1, .f32⟩
  | .hbm, ⟨27, _⟩ => ⟨S600000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x600000, .i32⟩
  | .hbm, ⟨35, _⟩ => ⟨S600000, .i32⟩
  | .hbm, ⟨36, _⟩ => ⟨S1x600000, .i32⟩
  | .hbm, ⟨37, _⟩ => ⟨S600000, .i32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S_, .f32⟩
  | .hbm, ⟨52, _⟩ => ⟨S600000x1, .f32⟩
  | .hbm, ⟨53, _⟩ => ⟨S_, .f32⟩
  | .hbm, ⟨54, _⟩ => ⟨S50000x1, .f32⟩
  | .hbm, ⟨55, _⟩ => ⟨S600000x1, .i32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S100000x128, .f32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S100000x128, .f32⟩
  | .hbm, ⟨67, _⟩ => ⟨S50000x128, .f32⟩
  | .hbm, ⟨68, _⟩ => ⟨S50000x128, .f32⟩
  | .hbm, ⟨69, _⟩ => ⟨S1x50000x128, .f32⟩
  | .hbm, ⟨70, _⟩ => ⟨S1x50000x128, .f32⟩
  | .hbm, ⟨71, _⟩ => ⟨S2x50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S100000x128_d0 : Shape.Concatenates [S50000x128, S50000x128] S100000x128 0
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S50000x128_0_0 : S100000x128.Slices ![0, 0] S50000x128
  slices_S100000x128_S50000x128_50000_0 : S100000x128.Slices ![50000, 0] S50000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v44) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x50000x128 : Shape := ⟨3, ![1, 50000, 128]⟩
abbrev S2x50000x128 : Shape := ⟨3, ![2, 50000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S2x600000, .i32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S50000x128, .f32⟩
  | .hbm, ⟨21, _⟩ => ⟨S600000x1, .i32⟩
  | .hbm, ⟨22, _⟩ => ⟨S50000x128, .f32⟩
  | .hbm, ⟨23, _⟩ => ⟨S_, .f32⟩
  | .hbm, ⟨24, _⟩ => ⟨S600000x1, .f32⟩
  | .hbm, ⟨25, _⟩ => ⟨S_, .f32⟩
  | .hbm, ⟨26, _⟩ => ⟨S50000x1, .f32⟩
  | .hbm, ⟨27, _⟩ => ⟨S600000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x600000, .i32⟩
  | .hbm, ⟨35, _⟩ => ⟨S600000, .i32⟩
  | .hbm, ⟨36, _⟩ => ⟨S1x600000, .i32⟩
  | .hbm, ⟨37, _⟩ => ⟨S600000, .i32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S_, .f32⟩
  | .hbm, ⟨52, _⟩ => ⟨S600000x1, .f32⟩
  | .hbm, ⟨53, _⟩ => ⟨S_, .f32⟩
  | .hbm, ⟨54, _⟩ => ⟨S50000x1, .f32⟩
  | .hbm, ⟨55, _⟩ => ⟨S600000x1, .i32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S1x50000x128, .f32⟩
  | .hbm, ⟨79, _⟩ => ⟨S1x50000x128, .f32⟩
  | .hbm, ⟨80, _⟩ => ⟨S2x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_cst : Ref sig .tc := ⟨.hbm, 75, rfl⟩
abbrev main_call1_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibRowStack.lean ====
/-
  Two matrices stacked one above the other, read at an entry.

  Concatenating an [a, n] array and a [b, n] array along axis 0 gives a [c, n] array (c = a + b) whose first a rows
  are the first array's rows and whose remaining rows are the second array's, in order. Read at entry (r, q): for
  r < a it is the first array at (r, q); for r = a + p it is the second array at (p, q). The statements are general
  in the extents, so one file serves every such stacking in a program.
-/
import Idealize.ShloMosaic.Lib.Pipeline.Value
import Idealize.ShloMosaic.Lib.ValueIdx

noncomputable section

namespace Cert.RowStack

open Idealize.ShloMosaic Idealize.ShloMosaic.ValueIdx

variable {α : Type} {a b c n : ℕ}

/-- A row of the stack that lies in the upper part is that row of the first array. -/
theorem stack_top (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (r : Fin c) (q : Fin n) (p : Fin a) (hp : p.val = r.val) :
    concatenate ⟨2, ![c, n]⟩ 0 [⟨⟨2, ![a, n]⟩, x⟩, ⟨⟨2, ![b, n]⟩, y⟩] h (ix2 r q) = x (ix2 p q) :=
  concatenate_pair_apply_left (t := ⟨2, ![c, n]⟩) (s₁ := ⟨2, ![a, n]⟩) (s₂ := ⟨2, ![b, n]⟩) (0 : Fin 2) x y h (ix2 r q) rfl (ix2 p q) (fun ax => by
    match ax with
    | ⟨0, _⟩ => exact hp
    | ⟨1, _⟩ => rfl)

/-- A row of the stack that lies in the lower part, the a-th row or later, is the row that many places earlier of
    the second array. -/
theorem stack_bot (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (r : Fin c) (q : Fin n) (p : Fin b) (hp : p.val + a = r.val) :
    concatenate ⟨2, ![c, n]⟩ 0 [⟨⟨2, ![a, n]⟩, x⟩, ⟨⟨2, ![b, n]⟩, y⟩] h (ix2 r q) = y (ix2 p q) :=
  concatenate_pair_apply_right (t := ⟨2, ![c, n]⟩) (s₁ := ⟨2, ![a, n]⟩) (s₂ := ⟨2, ![b, n]⟩) (0 : Fin 2) x y h (ix2 r q) rfl rfl (ix2 p q)
    (fun ax hax => by
      match ax with
      | ⟨0, _⟩ => exact absurd rfl hax
      | ⟨1, _⟩ => rfl) (by exact hp)

end Cert.RowStack

end
-- ==== Proof.Fused.lean ====
/-
  The fused layer, as a function of its arrays, and the one law the certificate rests on.

  For node features A and neighbour means B (both [R, K]) and two weight matrices Ws, Wn (both [K, N]) the layer's
  output is  relu (A · Ws + B · Wn) : entry (r, g) is
      max ( Σ_k A(r,k) · Ws(k,g)  +  Σ_k B(r,k) · Wn(k,g) ,  0 )
  over the extended reals. Row r of the output reads row r of A and of B and nothing else of them. Hence the output
  of the rows of two graphs stacked one above the other is the stack of the two outputs, and a block of consecutive
  rows of the output is the output of that block of rows: no algebra beyond reading the same sums is used, and no
  entry needs to be finite.
-/
import Idealize.ShloMosaic.PureOps.Ideal.Laws
import Idealize.ShloMosaic.Lib.ValueIdx
import Idealize.ShloMosaic.Lib.ValueLayout
import Idealize.ShloMosaic.Lib.IdealHost
import proofs.«109336_j61460982006090_1_alg».proof.Proof.LibPlainDot
import proofs.«109336_j61460982006090_1_alg».proof.Proof.LibRowStack

noncomputable section

namespace Cert.Fused

open Idealize.ShloMosaic Idealize.ShloMosaic.ValueIdx

variable {R R' K N : ℕ}

/-- Entry (r, g) of relu (A · Ws + B · Wn). -/
def fusedAt (A B : (⟨2, ![R, K]⟩ : Shape).Idx → EReal) (ws wn : (⟨2, ![K, N]⟩ : Shape).Idx → EReal) (r : Fin R) (g : Fin N) : EReal :=
  max ((∑ k : Fin K, A (ix2 r k) * ws (ix2 k g)) + ∑ k : Fin K, B (ix2 r k) * wn (ix2 k g)) (Ideal.ofBits .f32 0x00000000#32)

/-- The whole output array. -/
def fused (A B : (⟨2, ![R, K]⟩ : Shape).Idx → EReal) (ws wn : (⟨2, ![K, N]⟩ : Shape).Idx → EReal) : (⟨2, ![R, N]⟩ : Shape).Idx → EReal :=
  fun j => fusedAt A B ws wn (j 0) (j 1)

theorem fused_apply (A B : (⟨2, ![R, K]⟩ : Shape).Idx → EReal) (ws wn : (⟨2, ![K, N]⟩ : Shape).Idx → EReal) (r : Fin R) (g : Fin N) :
    fused A B ws wn (ix2 r g) = fusedAt A B ws wn r g := rfl

/-- ROW LOCALITY: an entry of the output is determined by the one row of A and of B it sits in and by column g of
    the weights. -/
theorem fusedAt_congr (A B : (⟨2, ![R, K]⟩ : Shape).Idx → EReal) (A' B' : (⟨2, ![R', K]⟩ : Shape).Idx → EReal)
    (ws wn ws' wn' : (⟨2, ![K, N]⟩ : Shape).Idx → EReal) (r : Fin R) (r' : Fin R') (g : Fin N)
    (hA : ∀ k, A (ix2 r k) = A' (ix2 r' k)) (hB : ∀ k, B (ix2 r k) = B' (ix2 r' k))
    (hws : ∀ k, ws (ix2 k g) = ws' (ix2 k g)) (hwn : ∀ k, wn (ix2 k g) = wn' (ix2 k g)) :
    fusedAt A B ws wn r g = fusedAt A' B' ws' wn' r' g := by
  unfold fusedAt
  simp only [hA, hB, hws, hwn]

/-- The host's spelling of the layer — two dot_generals contracting axis 1 with axis 0, their sum, the maximum with a
    broadcast zero — is the layer. -/
theorem host_eq (d : DotDims ⟨2, ![R, K]⟩ ⟨2, ![K, N]⟩ ⟨2, ![R, N]⟩) (hd : d = DotDims.plain R K N)
    (A B : FVec Ideal ⟨2, ![R, K]⟩ .f32) (ws wn : FVec Ideal ⟨2, ![K, N]⟩ .f32)
    (hz : (⟨0, ![]⟩ : Shape).BroadcastsInDim ⟨2, ![R, N]⟩ ![]) :
    maximumf (addf (Host.dotGeneral (F := Ideal) d none A ws) (Host.dotGeneral (F := Ideal) d none B wn))
        (broadcastInDim ⟨2, ![R, N]⟩ ![] hz (constant (F := Ideal) ⟨0, ![]⟩ .f32 0x00000000#32))
      = fused A B ws wn := by
  funext j
  obtain ⟨r, g, rfl⟩ : ∃ (r : Fin R) (g : Fin N), j = ix2 r g := ⟨j 0, j 1, eq_ix2 j⟩
  rw [maximumf_apply, addf_apply, Cert.PlainDot.hostDot_apply d hd A ws r g, Cert.PlainDot.hostDot_apply d hd B wn r g,
    broadcastInDim_scalar_apply, constant_apply]
  rfl

/-- The matrix unit's spelling — both operands narrowed to bf16 (no change over the extended reals), two products
    into zero accumulators, their sum, the maximum with a splat zero — is the layer. -/
theorem unit_eq (d : DotDims ⟨2, ![R, K]⟩ ⟨2, ![K, N]⟩ ⟨2, ![R, N]⟩) (hd : d = DotDims.plain R K N)
    (A B : FVec Ideal ⟨2, ![R, K]⟩ .f32) (ws wn : FVec Ideal ⟨2, ![K, N]⟩ .f32)
    (h16 : FTy.bits .bf16 < FTy.bits .f32) :
    maximumf (addf (matmul (F := Ideal) d none (truncf .bf16 A h16) (truncf .bf16 ws h16) (constant ⟨2, ![R, N]⟩ .f32 0x00000000#32))
          (matmul (F := Ideal) d none (truncf .bf16 B h16) (truncf .bf16 wn h16) (constant ⟨2, ![R, N]⟩ .f32 0x00000000#32)))
        (broadcast ⟨2, ![R, N]⟩ (Scalar.ofBits (F := Ideal) .f32 0x00000000#32))
      = fused A B ws wn := by
  funext j
  obtain ⟨r, g, rfl⟩ : ∃ (r : Fin R) (g : Fin N), j = ix2 r g := ⟨j 0, j 1, eq_ix2 j⟩
  rw [maximumf_apply, addf_apply, Cert.PlainDot.matmul_zero_apply d hd _ _ r g, Cert.PlainDot.matmul_zero_apply d hd _ _ r g,
    broadcast_apply]
  rfl

/-! ## Stacked graphs -/

variable {a b c : ℕ}

/-- The first a rows of the layer's output on two stacked graphs are the layer's output on the first graph. -/
theorem upper_rows (A₁ B₁ : (⟨2, ![a, K]⟩ : Shape).Idx → EReal) (A₂ B₂ : (⟨2, ![b, K]⟩ : Shape).Idx → EReal)
    (ws wn : (⟨2, ![K, N]⟩ : Shape).Idx → EReal) (hab : a + b = c)
    (hc : Shape.Concatenates [⟨2, ![a, K]⟩, ⟨2, ![b, K]⟩] ⟨2, ![c, K]⟩ 0)
    (hs : (⟨2, ![c, N]⟩ : Shape).Slices ![0, 0] ⟨2, ![a, N]⟩) :
    extractStridedSlice ⟨2, ![a, N]⟩ ![0, 0]
        (fused (concatenate ⟨2, ![c, K]⟩ 0 [⟨⟨2, ![a, K]⟩, A₁⟩, ⟨⟨2, ![b, K]⟩, A₂⟩] hc)
          (concatenate ⟨2, ![c, K]⟩ 0 [⟨⟨2, ![a, K]⟩, B₁⟩, ⟨⟨2, ![b, K]⟩, B₂⟩] hc) ws wn) hs
      = fused A₁ B₁ ws wn := by
  funext j
  obtain ⟨p, g, rfl⟩ : ∃ (p : Fin a) (g : Fin N), j = ix2 p g := ⟨j 0, j 1, eq_ix2 j⟩
  have hp : p.val < c := by have := p.isLt; omega
  rw [slice2_axis0_apply 0 _ hs p g ⟨p.val, hp⟩ (Nat.zero_add _).symm, fused_apply, fused_apply]
  exact fusedAt_congr _ _ A₁ B₁ ws wn ws wn ⟨p.val, hp⟩ p g
    (fun k => Cert.RowStack.stack_top A₁ A₂ hc ⟨p.val, hp⟩ k p rfl)
    (fun k => Cert.RowStack.stack_top B₁ B₂ hc ⟨p.val, hp⟩ k p rfl) (fun _ => rfl) (fun _ => rfl)

/-- The remaining rows are the layer's output on the second graph. -/
theorem lower_rows (A₁ B₁ : (⟨2, ![a, K]⟩ : Shape).Idx → EReal) (A₂ B₂ : (⟨2, ![b, K]⟩ : Shape).Idx → EReal)
    (ws wn : (⟨2, ![K, N]⟩ : Shape).Idx → EReal) (hab : a + b = c)
    (hc : Shape.Concatenates [⟨2, ![a, K]⟩, ⟨2, ![b, K]⟩] ⟨2, ![c, K]⟩ 0)
    (hs : (⟨2, ![c, N]⟩ : Shape).Slices ![a, 0] ⟨2, ![b, N]⟩) :
    extractStridedSlice ⟨2, ![b, N]⟩ ![a, 0]
        (fused (concatenate ⟨2, ![c, K]⟩ 0 [⟨⟨2, ![a, K]⟩, A₁⟩, ⟨⟨2, ![b, K]⟩, A₂⟩] hc)
          (concatenate ⟨2, ![c, K]⟩ 0 [⟨⟨2, ![a, K]⟩, B₁⟩, ⟨⟨2, ![b, K]⟩, B₂⟩] hc) ws wn) hs
      = fused A₂ B₂ ws wn := by
  funext j
  obtain ⟨p, g, rfl⟩ : ∃ (p : Fin b) (g : Fin N), j = ix2 p g := ⟨j 0, j 1, eq_ix2 j⟩
  have hp : a + p.val < c := by have := p.isLt; omega
  rw [slice2_axis0_apply a _ hs p g ⟨a + p.val, hp⟩ rfl, fused_apply, fused_apply]
  exact fusedAt_congr _ _ A₂ B₂ ws wn ws wn ⟨a + p.val, hp⟩ p g
    (fun k => Cert.RowStack.stack_bot A₁ A₂ hc ⟨a + p.val, hp⟩ k p (Nat.add_comm _ _))
    (fun k => Cert.RowStack.stack_bot B₁ B₂ hc ⟨a + p.val, hp⟩ k p (Nat.add_comm _ _)) (fun _ => rfl) (fun _ => rfl)

end Cert.Fused

end
-- ==== Proof.KernelBlocks.lean ====
/-
  The kernel's output array, as one function of the four arrays its windows read.

  The grid has 20 points. At point t the body loads rows 5000·t … 5000·t + 4999 of the stacked node features and of
  the stacked neighbour means (windows 0 and 1), loads both weight matrices whole (windows 2 and 3), and stores the
  layer of those blocks, relu (x · Ws + n · Wn), as rows 5000·t … 5000·t + 4999 of the result (window 4). Since row
  r of the layer's output reads only row r of the features and of the means, each stored block is the matching block
  of the layer applied to the WHOLE arrays; the 20 blocks tile the 100000 rows, so after the last point the result
  array is the layer of the whole arrays.
-/
import proofs.«109336_j61460982006090_1_alg».proof.Proof.Gen.KernelIdeal.Frame
import proofs.«109336_j61460982006090_1_alg».proof.Proof.Fused
import Idealize.ShloMosaic.Lib.Pipeline.Value
import Idealize.ShloMosaic.Lib.ValueIdx

noncomputable section

namespace Cert.KernelIdeal.Layer

open Cert.KernelIdeal Cert.KernelIdeal.Gen Idealize.ShloMosaic Idealize.ShloMosaic.TcCoe Idealize.SL.Sem
open Idealize.ShloMosaic.ValueIdx Cert.Fused
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- What the body stores is the layer of the four blocks it loaded: narrowing to bf16 changes nothing over the
    extended reals, and each product into a zero accumulator is the plain sum of products. -/
theorem stored_eq (x0 x1 : Vec Ideal S5000x128 .f32) (x2 x3 : Vec Ideal S128x128 .f32) :
    k0_pay1 x0 x1 x2 x3 = fused x0 x1 x2 x3 := by
  unfold k0_pay1
  simp only [shapeCast_self]
  exact unit_eq dot_S5000x128_S128x128_S5000x128_1_0_0_1_n_n rfl x0 x1 x2 x3 bitsLt_bf16_f32

/-- The block index maps over the grid: the row windows are at block t, column block 0; the weights at block (0,0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the feature block at point t is row 5000·t + p of the stacked features. -/
theorem feat_block (c : Dev nD) (t : Fin cfg0.N) (p : Fin 5000) (k : Fin 128) (r : Fin 100000) (hr : r.val = t.val * 5000 + p.val) :
    iblk m c 0 t (ix2 p k) = V m c main_v44 (ix2 r k) := by
  obtain ⟨e00, e01, -⟩ := block_index t
  show V m c main_v44 (((cfg0.win 0).blk t).view.emb (ix2 p k)) = _
  refine congrArg (V m c main_v44) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the neighbour-mean block at point t is row 5000·t + p of the stacked means. -/
theorem mean_block (c : Dev nD) (t : Fin cfg0.N) (p : Fin 5000) (k : Fin 128) (r : Fin 100000) (hr : r.val = t.val * 5000 + p.val) :
    iblk m c 1 t (ix2 p k) = V m c main_v45 (ix2 r k) := by
  obtain ⟨-, -, e10, e11, -⟩ := block_index t
  show V m c main_v45 (((cfg0.win 1).blk t).view.emb (ix2 p k)) = _
  refine congrArg (V m c main_v45) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The self-weight block is the whole matrix at every point. -/
theorem wself_block (c : Dev nD) (t : Fin cfg0.N) (k g : Fin 128) :
    iblk m c 2 t (ix2 k g) = V m c main_v46 (ix2 k g) := by
  obtain ⟨-, -, -, -, e20, e21, -⟩ := block_index t
  show V m c main_v46 (((cfg0.win 2).blk t).view.emb (ix2 k g)) = _
  refine congrArg (V m c main_v46) (funext fun a => Fin.ext ?_)
  match a with
  | ⟨0, _⟩ => show win0_2.index t (0 : Fin 2) * 128 + 1 * k.val = k.val; omega
  | ⟨1, _⟩ => show win0_2.index t (1 : Fin 2) * 128 + 1 * g.val = g.val; omega

/-- The neighbour-weight block is the whole matrix at every point. -/
theorem wneigh_block (c : Dev nD) (t : Fin cfg0.N) (k g : Fin 128) :
    iblk m c 3 t (ix2 k g) = V m c main_v47 (ix2 k g) := by
  obtain ⟨-, -, -, -, -, -, e30, e31, -⟩ := block_index t
  show V m c main_v47 (((cfg0.win 3).blk t).view.emb (ix2 k g)) = _
  refine congrArg (V m c main_v47) (funext fun a => Fin.ext ?_)
  match a with
  | ⟨0, _⟩ => show win0_3.index t (0 : Fin 2) * 128 + 1 * k.val = k.val; omega
  | ⟨1, _⟩ => show win0_3.index t (1 : Fin 2) * 128 + 1 * g.val = g.val; omega

/-- The layer of the arrays as the region finds them. -/
abbrev whole (c : Dev nD) : S100000x128.Idx → EReal :=
  fused (V m c main_v44) (V m c main_v45) (V m c main_v46) (V m c main_v47)

/-- WHAT POINT t WRITES BACK is block t of the layer of the whole arrays. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero origin]
  simp only [View.ld_unit_zero (S := S5000x128) origin, View.ld_unit_zero (S := S128x128) origin]
  rw [stored_eq]
  funext j
  obtain ⟨p, q, rfl⟩ : ∃ (p : Fin 5000) (q : Fin 128), j = ix2 p q := ⟨j 0, j 1, eq_ix2 j⟩
  obtain ⟨-, -, -, -, -, -, -, -, e40, e41⟩ := block_index t
  have ht : t.val < 20 := lt_of_lt_of_eq t.isLt N_0
  have hr : t.val * 5000 + p.val < 100000 := by have := p.isLt; omega
  have h4 : ((cfg0.win 4).blk t).view.emb (ix2 p q) = ix2 (⟨t.val * 5000 + p.val, hr⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show fusedAt (iblk m c 0 t) (iblk m c 1 t) (iblk m c 2 t) (iblk m c 3 t) p q
    = whole m c (((cfg0.win 4).blk t).view.emb (ix2 p q))
  rw [h4]
  exact fusedAt_congr (iblk m c 0 t) (iblk m c 1 t) (V m c main_v44) (V m c main_v45)
    (iblk m c 2 t) (iblk m c 3 t) (V m c main_v46) (V m c main_v47) p ⟨t.val * 5000 + p.val, hr⟩ q
    (fun k => feat_block m c t p k ⟨t.val * 5000 + p.val, hr⟩ rfl)
    (fun k => mean_block m c t p k ⟨t.val * 5000 + p.val, hr⟩ rfl)
    (fun k => wself_block m c t k q) (fun k => wneigh_block m c t k q)

/-- An index of the result array is in point t's block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v48).slice (win0_4.rect t)).set ↔ _
  rw [View.set_slice_whole, Rect.mem_set_unit]
  exact Iff.rfl

/-- Every row r of the result is written by the point r / 5000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, -, -, -, -, e40, e41⟩ := block_index ⟨(i 0).val / 5000, hq⟩
  refine ⟨⟨(i 0).val / 5000, hq⟩, flush0_4 _, ?_⟩
  rw [mem_block]
  intro a
  match a with
  | ⟨0, _⟩ =>
    show win0_4.index ⟨(i 0).val / 5000, hq⟩ (0 : Fin 2) * 5000 ≤ (i 0).val ∧ (i 0).val < win0_4.index ⟨(i 0).val / 5000, hq⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hq⟩ (1 : Fin 2) * 128 ≤ (i 1).val ∧ (i 1).val < win0_4.index ⟨(i 0).val / 5000, hq⟩ (1 : Fin 2) * 128 + 128
    rw [e41]; omega

/-- THE RESULT ARRAY after the last point is the layer of the arrays the region found. -/
theorem result_array (c : Dev nD) : (dats m 0 c).arrAt 4 cfg0.N = whole m c :=
  (dats m 0 c).arrAt_eq_of_cover 4 (whole m c) (fun t _ => flushed_eq m c t) covered

end Cert.KernelIdeal.Layer

end
-- ==== Proof.KernelHost.lean ====
/-
  The host operations of the kernel's program around its one region.

  BEFORE the region the program computes, on the host, the same neighbour means as the reference (the very same
  operations on the same arguments, so they are named here by the reference's stages and never opened), stacks the
  users' rows above the items' rows — once for the features, once for the means — and transposes the two weight
  matrices. These four arrays are what the region's windows read.
  AFTER the region it cuts the [100000, 128] result into its first and last 50000 rows and stacks the two halves
  along a new leading axis.
-/
import proofs.«109336_j61460982006090_1_alg».proof.Proof.Gen.KernelIdeal.Frame
import proofs.«109336_j61460982006090_1_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Two arrays joined along an axis, the arrays as plain arguments: the two-piece concatenation itself. -/
def join2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem join2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = join2 t a s₁ s₂ x₁ x₂ h := rfl

/-- The features the region reads: the users' rows above the items' rows. -/
theorem feats_eq (c : Dev nD) : (V m c main_v44 : S100000x128.Idx → EReal)
    = concatenate S100000x128 0 [⟨S50000x128, m ((c : Thread nD τ).loc main_arg0)⟩, ⟨S50000x128, m ((c : Thread nD τ).loc main_arg1)⟩]
        concatenates_S50000x128_S50000x128_S100000x128_d0 := by
  show StableHlo.after hostOps0 (fun b => m (c, b)) (Proc.devRef .tc main_v44) = _
  after_results_simp
  rfl

/-- The neighbour means the region reads, the argument arrays named: the users' means (of the items' features along
    the item→user edges) above the items' means (of the users' features along the user→item edges). The host
    operations that compute them are the reference's, operation for operation. -/
theorem means_of (c : Dev nD) (x0 x1 : (⟨S50000x128, .f32⟩ : BufTy).Contents (Elt Ideal)) (x4 x5 : (⟨S2x600000, .i32⟩ : BufTy).Contents (Elt Ideal))
    (h0 : m (c, Proc.devRef .tc main_arg0) = x0) (h1 : m (c, Proc.devRef .tc main_arg1) = x1)
    (h4 : m (c, Proc.devRef .tc main_arg4) = x4) (h5 : m (c, Proc.devRef .tc main_arg5) = x5) :
    (V m c main_v45 : S100000x128.Idx → EReal)
    = concatenate S100000x128 0
        [⟨S50000x128, Cert.ReferenceIdeal.Read.val_main_v21 (F := Ideal) x1 x4⟩,
         ⟨S50000x128, Cert.ReferenceIdeal.Read.val_main_v43 (F := Ideal) x0 x5⟩]
        concatenates_S50000x128_S50000x128_S100000x128_d0 := by
  show StableHlo.after hostOps0 (fun b => m (c, b)) (Proc.devRef .tc main_v45) = _
  after_results_simp
  rw [join2_eq]
  after_results_simp
  rw [h0, h1, h4, h5]
  unfold join2
  rfl

/-- The same, at the program's argument arrays. -/
theorem means_eq (c : Dev nD) : (V m c main_v45 : S100000x128.Idx → EReal)
    = concatenate S100000x128 0
        [⟨S50000x128, Cert.ReferenceIdeal.Read.val_main_v21 (F := Ideal) (m ((c : Thread nD τ).loc main_arg1)) (m ((c : Thread nD τ).loc main_arg4))⟩,
         ⟨S50000x128, Cert.ReferenceIdeal.Read.val_main_v43 (F := Ideal) (m ((c : Thread nD τ).loc main_arg0)) (m ((c : Thread nD τ).loc main_arg5))⟩]
        concatenates_S50000x128_S50000x128_S100000x128_d0 :=
  means_of m c _ _ _ _ rfl rfl rfl rfl

/-- The self weights the region reads, transposed. -/
theorem wself_eq (c : Dev nD) : (V m c main_v46 : S128x128.Idx → EReal)
    = Cert.ReferenceIdeal.Read.val_main_v44 (F := Ideal) (m ((c : Thread nD τ).loc main_arg2)) := by
  show StableHlo.after hostOps0 (fun b => m (c, b)) (Proc.devRef .tc main_v46) = _
  after_results_simp
  rfl

/-- The neighbour weights the region reads, transposed. -/
theorem wneigh_eq (c : Dev nD) : (V m c main_v47 : S128x128.Idx → EReal)
    = Cert.ReferenceIdeal.Read.val_main_v46 (F := Ideal) (m ((c : Thread nD τ).loc main_arg3)) := by
  show StableHlo.after hostOps0 (fun b => m (c, b)) (Proc.devRef .tc main_v47) = _
  after_results_simp
  rfl

/-- The program's result, given the region's result array X: the first and the last 50000 rows of X, stacked along
    a new leading axis. -/
theorem tail_eq (c : Dev nD) (X : S100000x128.Idx → EReal) (hX : (dats m 0 c).arrAt 4 cfg0.N = X) :
    Pipeline.afterTail₀ cfgs (dats m) 0 (V0 m) [hostOps1] c main_v53
      = concatenate S2x50000x128 0
          [⟨S1x50000x128, broadcastInDim S1x50000x128 ![1, 2] bcast_S50000x128_S1x50000x128_1_2
              (extractStridedSlice S50000x128 ![0, 0] X slices_S100000x128_S50000x128_0_0)⟩,
           ⟨S1x50000x128, broadcastInDim S1x50000x128 ![1, 2] bcast_S50000x128_S1x50000x128_1_2
              (extractStridedSlice S50000x128 ![50000, 0] X slices_S100000x128_S50000x128_50000_0)⟩]
          concatenates_S1x50000x128_S1x50000x128_S2x50000x128_d0 := by
  have hw : Pipeline.withArrays spec0 c (V0 m c) (fun w => (dats m 0 c).arrAt w cfg0.N) (Proc.devRef .tc main_v48) = X :=
    (Pipeline.withArrays_arr spec0 launch0.win.arr_inj c (V0 m c) (fun w => (dats m 0 c).arrAt w cfg0.N) 4).trans hX
  unfold Pipeline.afterTail₀
  show StableHlo.after hostOps1 (Pipeline.withArrays spec0 c (V0 m c) (fun w => (dats m 0 c).arrAt w cfg0.N)) (Proc.devRef .tc main_v53) = _
  generalize Pipeline.withArrays spec0 c (V0 m c) (fun w => (dats m 0 c).arrAt w cfg0.N) = W at hw ⊢
  after_results
  rw [hw]

end Cert.KernelIdeal.Host

end
-- ==== Proof.Reference.lean ====
/-
  The reference's result, as the layer applied to each graph and the two outputs stacked.

  The reference computes, for the users,  relu (users · W_selfᵀ + mean_u · W_neighᵀ)  and, for the items,
  relu (items · W_selfᵀ + mean_i · W_neighᵀ), each by two dot_generals, an addition and a maximum with zero, and
  stacks the two [50000, 128] arrays into one [2, 50000, 128] array. The neighbour means mean_u, mean_i (a gather,
  two scatter-adds, a maximum with one and a division) and the transposed weights are carried as they are: nothing
  here looks inside them.
-/
import proofs.«109336_j61460982006090_1_alg».proof.Proof.Gen.ReferenceIdeal.Read
import proofs.«109336_j61460982006090_1_alg».proof.Proof.Fused

noncomputable section

namespace Cert.ReferenceIdeal.Layer

open Cert.ReferenceIdeal Cert.ReferenceIdeal.Gen Cert.ReferenceIdeal.Read Idealize.ShloMosaic Cert.Fused

/-- Two [50000, 128] arrays stacked along a new leading axis. -/
def stack (A B : (⟨S50000x128, .f32⟩ : BufTy).Contents (Elt Ideal)) : (⟨S2x50000x128, .f32⟩ : BufTy).Contents (Elt Ideal) :=
  concatenate S2x50000x128 0
    [⟨S1x50000x128, broadcastInDim S1x50000x128 ![1, 2] bcast_S50000x128_S1x50000x128_1_2 A⟩,
     ⟨S1x50000x128, broadcastInDim S1x50000x128 ![1, 2] bcast_S50000x128_S1x50000x128_1_2 B⟩]
    concatenates_S1x50000x128_S1x50000x128_S2x50000x128_d0

/-- The users' half is the layer of the users' features and the users' neighbour means. -/
theorem users_eq (x0 x1 : (⟨S50000x128, .f32⟩ : BufTy).Contents (Elt Ideal)) (x2 x3 : (⟨S128x128, .f32⟩ : BufTy).Contents (Elt Ideal))
    (x4 : (⟨S2x600000, .i32⟩ : BufTy).Contents (Elt Ideal)) :
    val_main_v49 (F := Ideal) x0 x1 x2 x3 x4
      = fused x0 (val_main_v21 (F := Ideal) x1 x4) (val_main_v44 (F := Ideal) x2) (val_main_v46 (F := Ideal) x3) := by
  unfold val_main_v49 val_main_v48 val_main_v45 val_main_v47 val_main_call0_v0 val_main_call0_cst
  generalize val_main_v21 (F := Ideal) x1 x4 = nu
  generalize val_main_v44 (F := Ideal) x2 = ws
  generalize val_main_v46 (F := Ideal) x3 = wn
  exact host_eq dot_S50000x128_S128x128_S50000x128_1_0_0_1_n_n rfl x0 nu ws wn bcast_S_S50000x128

/-- The items' half is the layer of the items' features and the items' neighbour means, with the same weights. -/
theorem items_eq (x0 x1 : (⟨S50000x128, .f32⟩ : BufTy).Contents (Elt Ideal)) (x2 x3 : (⟨S128x128, .f32⟩ : BufTy).Contents (Elt Ideal))
    (x5 : (⟨S2x600000, .i32⟩ : BufTy).Contents (Elt Ideal)) :
    val_main_v55 (F := Ideal) x0 x1 x2 x3 x5
      = fused x1 (val_main_v43 (F := Ideal) x0 x5) (val_main_v44 (F := Ideal) x2) (val_main_v46 (F := Ideal) x3) := by
  unfold val_main_v55 val_main_v54 val_main_v51 val_main_v53 val_main_call1_v0 val_main_call1_cst val_main_v50 val_main_v52
    val_main_v44 val_main_v46
  generalize val_main_v43 (F := Ideal) x0 x5 = ni
  exact host_eq dot_S50000x128_S128x128_S50000x128_1_0_0_1_n_n rfl x1 ni _ _ bcast_S_S50000x128

/-- The reference's result is the stack of the two layers. -/
theorem value_eq (x0 x1 : (⟨S50000x128, .f32⟩ : BufTy).Contents (Elt Ideal)) (x2 x3 : (⟨S128x128, .f32⟩ : BufTy).Contents (Elt Ideal))
    (x4 x5 : (⟨S2x600000, .i32⟩ : BufTy).Contents (Elt Ideal)) :
    val_main_v58 (F := Ideal) x0 x1 x2 x3 x4 x5
      = stack (fused x0 (val_main_v21 (F := Ideal) x1 x4) (val_main_v44 (F := Ideal) x2) (val_main_v46 (F := Ideal) x3))
          (fused x1 (val_main_v43 (F := Ideal) x0 x5) (val_main_v44 (F := Ideal) x2) (val_main_v46 (F := Ideal) x3)) := by
  unfold val_main_v58 val_main_v56 val_main_v57 stack
  rw [users_eq, items_eq]

end Cert.ReferenceIdeal.Layer

end
-- ==== Proof.KernelValue.lean ====
/-
  The kernel program's result, and its run.

  After the region the result array is the layer of the stacked features, the stacked neighbour means and the two
  transposed weight matrices. Its first 50000 rows are therefore the layer of the users' features and means, its last
  50000 rows the layer of the items' (row r of the layer's output reads only row r of the features and of the means),
  and stacking the two halves gives exactly the reference's result, as a function of the same six arguments.
-/
import proofs.«109336_j61460982006090_1_alg».proof.Proof.KernelBlocks
import proofs.«109336_j61460982006090_1_alg».proof.Proof.KernelHost
import proofs.«109336_j61460982006090_1_alg».proof.Proof.Reference

noncomputable section

namespace Cert.KernelIdeal.Result

open Cert.KernelIdeal Cert.KernelIdeal.Gen Idealize.ShloMosaic Idealize.ShloMosaic.TcCoe Idealize.SL.Sem Cert.Fused

variable (m : (ℓ : Loc nD τ sig) → Buf (Elt Ideal) ℓ) (ρ : Dev nD → PrngReg)

/-- The region's result array, in terms of the program's arguments. -/
theorem whole_eq (c : Dev nD) : Layer.whole m c
    = fused
        (concatenate S100000x128 0 [⟨S50000x128, m ((c : Thread nD τ).loc main_arg0)⟩, ⟨S50000x128, m ((c : Thread nD τ).loc main_arg1)⟩]
          concatenates_S50000x128_S50000x128_S100000x128_d0)
        (concatenate S100000x128 0
          [⟨S50000x128, Cert.ReferenceIdeal.Read.val_main_v21 (F := Ideal) (m ((c : Thread nD τ).loc main_arg1)) (m ((c : Thread nD τ).loc main_arg4))⟩,
           ⟨S50000x128, Cert.ReferenceIdeal.Read.val_main_v43 (F := Ideal) (m ((c : Thread nD τ).loc main_arg0)) (m ((c : Thread nD τ).loc main_arg5))⟩]
          concatenates_S50000x128_S50000x128_S100000x128_d0)
        (Cert.ReferenceIdeal.Read.val_main_v44 (F := Ideal) (m ((c : Thread nD τ).loc main_arg2)))
        (Cert.ReferenceIdeal.Read.val_main_v46 (F := Ideal) (m ((c : Thread nD τ).loc main_arg3))) := by
  have h1 := Host.feats_eq m c
  have h2 := Host.means_eq m c
  have h3 := Host.wself_eq m c
  have h4 := Host.wneigh_eq m c
  show fused (V m c main_v44) (V m c main_v45) (V m c main_v46) (V m c main_v47) = _
  rw [h1, h2, h3, h4]

/-- Cutting the layer of two stacked graphs into its halves and stacking the halves along a new axis is the stack of
    the two graphs' layers. -/
theorem halves_eq (a b nu ni : (⟨S50000x128, .f32⟩ : BufTy).Contents (Elt Ideal)) (ws wn : (⟨S128x128, .f32⟩ : BufTy).Contents (Elt Ideal)) :
    concatenate S2x50000x128 0
        [⟨S1x50000x128, broadcastInDim S1x50000x128 ![1, 2] bcast_S50000x128_S1x50000x128_1_2
            (extractStridedSlice S50000x128 ![0, 0]
              (fused (concatenate S100000x128 0 [⟨S50000x128, a⟩, ⟨S50000x128, b⟩] concatenates_S50000x128_S50000x128_S100000x128_d0)
                (concatenate S100000x128 0 [⟨S50000x128, nu⟩, ⟨S50000x128, ni⟩] concatenates_S50000x128_S50000x128_S100000x128_d0) ws wn)
              slices_S100000x128_S50000x128_0_0)⟩,
         ⟨S1x50000x128, broadcastInDim S1x50000x128 ![1, 2] bcast_S50000x128_S1x50000x128_1_2
            (extractStridedSlice S50000x128 ![50000, 0]
              (fused (concatenate S100000x128 0 [⟨S50000x128, a⟩, ⟨S50000x128, b⟩] concatenates_S50000x128_S50000x128_S100000x128_d0)
                (concatenate S100000x128 0 [⟨S50000x128, nu⟩, ⟨S50000x128, ni⟩] concatenates_S50000x128_S50000x128_S100000x128_d0) ws wn)
              slices_S100000x128_S50000x128_50000_0)⟩]
        concatenates_S1x50000x128_S1x50000x128_S2x50000x128_d0
      = Cert.ReferenceIdeal.Layer.stack (fused a nu ws wn) (fused b ni ws wn) := by
  have hu := upper_rows a nu b ni ws wn (by norm_num : 50000 + 50000 = 100000)
    concatenates_S50000x128_S50000x128_S100000x128_d0 slices_S100000x128_S50000x128_0_0
  have hl := lower_rows a nu b ni ws wn (by norm_num : 50000 + 50000 = 100000)
    concatenates_S50000x128_S50000x128_S100000x128_d0 slices_S100000x128_S50000x128_50000_0
  rw [hu, hl]
  generalize fused a nu ws wn = X
  generalize fused b ni ws wn = Y
  rfl

/-- THE RESULT of the kernel's program is the reference's result function of the kernel's arguments. -/
theorem result_eq (c : Dev nD) :
    Pipeline.afterTail₀ cfgs (dats m) 0 (V0 m) [hostOps1] c main_v53
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [Host.tail_eq m c (Layer.whole m c) (Layer.result_array m c), whole_eq m c, Cert.ReferenceIdeal.Layer.value_eq]
  exact halves_eq _ _ _ _ _ _

/-- The kernel program's run: every weakly fair execution terminates, without a fault, with the result at the
    reference's function of the arguments and the arguments unchanged. -/
theorem run : θ_run defs (onTc (τ := τ) (main (F := Ideal))) ⟨m, fun _ => 0, ρ⟩ fun r => ∀ c : Dev nD,
      r.2.mem ((c.tc : Thread nD τ).loc main_v53)
        = Cert.ReferenceIdeal.Read.val_main_v58 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v53 (Pipeline.mem_restRefs_of main_v53 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The proof of `Cert.Claim`: a GraphSAGE mean-aggregation layer over a user graph and an item graph.

  Both programs compute, on the host and by the same operations, the mean of each node's neighbours' features (a
  gather along the edges, a scatter-add per destination node, a division by the in-degree, at least one). The
  reference then applies  relu (h · W_selfᵀ + mean · W_neighᵀ)  to the users and to the items separately and stacks
  the two results; the kernel stacks the users' rows above the items' rows first, applies the same layer to the
  100000 stacked rows in 20 blocks of 5000 rows on the matrix unit, and cuts the result back into its two halves.
  Over the extended reals the two agree entry by entry because row r of the layer's output reads only row r of the
  features and of the means: no sum is regrouped and nothing has to be finite, so the precondition is not opened.
  The three frames are the generated ones (the reference's is its generated run with the result dropped), and the
  idealization rewrote nothing, so `preserves` is trivial.
-/
import proofs.«109336_j61460982006090_1_alg».proof.Defs
import proofs.«109336_j61460982006090_1_alg».proof.Proof.Gen.Kernel
import proofs.«109336_j61460982006090_1_alg».proof.Proof.Gen.Kernel.Skeleton
import proofs.«109336_j61460982006090_1_alg».proof.Proof.Gen.Kernel.Launch
import proofs.«109336_j61460982006090_1_alg».proof.Proof.Gen.Kernel.Points
import proofs.«109336_j61460982006090_1_alg».proof.Proof.Gen.Kernel.Frame
import proofs.«109336_j61460982006090_1_alg».proof.Proof.Gen.KernelIdeal
import proofs.«109336_j61460982006090_1_alg».proof.Proof.Gen.KernelIdeal.Skeleton
import proofs.«109336_j61460982006090_1_alg».proof.Proof.Gen.KernelIdeal.Launch
import proofs.«109336_j61460982006090_1_alg».proof.Proof.Gen.KernelIdeal.Points
import proofs.«109336_j61460982006090_1_alg».proof.Proof.Gen.KernelIdeal.Frame
import proofs.«109336_j61460982006090_1_alg».proof.Proof.Gen.ReferenceIdeal
import proofs.«109336_j61460982006090_1_alg».proof.Proof.Gen.Pre_finite_inputs
import proofs.«109336_j61460982006090_1_alg».proof.Proof.Gen.ReferenceIdeal.Run
import proofs.«109336_j61460982006090_1_alg».proof.Proof.Gen.ReferenceIdeal.Read
import proofs.«109336_j61460982006090_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at ONE function of the six arguments — the reference's stages, read at the
    kernel's arguments, which the reference's memory agrees with. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
